-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x4096 : Shape := ⟨2, ![8, 4096]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel

variable [Facts]

def fn {F : FTy → Type} [FloatOps F] (main_arg0 : FVec F S8x4096x1024 .f32) (main_arg1 : IVec S8x4096 32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  main_v3
-- ==== Kernel.lean ====
abbrev S8x4096x1024 : Shape := ⟨3, ![8, 4096, 1024]⟩
abbrev S8x4096 : Shape := ⟨2, ![8, 4096]⟩
abbrev S32768x1024 : Shape := ⟨2, ![32768, 1024]⟩
abbrev S2048x1024 : Shape := ⟨2, ![2048, 1024]⟩
abbrev S_ : Shape := ⟨0, ![]⟩
abbrev S32768 : Shape := ⟨1, ![32768]⟩
abbrev S8x1 : Shape := ⟨2, ![8, 1]⟩
abbrev S8 : Shape := ⟨1, ![8]⟩

abbrev nBuf : Space → Nat
  | .hbm => 28
  | .vmem => 4
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S32768x1024, .f32⟩
  | .hbm, ⟨3, _⟩ => ⟨S32768x1024, .f32⟩
  | .hbm, ⟨4, _⟩ => ⟨S_, .i32⟩
  | .hbm, ⟨5, _⟩ => ⟨S8x4096, .i32⟩
  | .hbm, ⟨6, _⟩ => ⟨S8x4096, .i1⟩
  | .hbm, ⟨7, _⟩ => ⟨S8x4096, .i32⟩
  | .hbm, ⟨8, _⟩ => ⟨S32768, .i32⟩
  | .hbm, ⟨9, _⟩ => ⟨S_, .i32⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S8x1, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S8, .i32⟩
  | .hbm, ⟨19, _⟩ => ⟨S_, .i32⟩
  | .hbm, ⟨20, _⟩ => ⟨S_, .i32⟩
  | .hbm, ⟨21, _⟩ => ⟨S8, .i32⟩
  | .hbm, ⟨22, _⟩ => ⟨S8, .i32⟩
  | .hbm, ⟨23, _⟩ => ⟨S8x4096, .i32⟩
  | .hbm, ⟨24, _⟩ => ⟨S8x1, .i32⟩
  | .hbm, ⟨25, _⟩ => ⟨S8x4096, .i32⟩
  | .hbm, ⟨26, _⟩ => ⟨S8x4096, .i32⟩
  | .hbm, ⟨27, _⟩ => ⟨S32768, .i32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_call0_c : Ref sig .tc := ⟨.hbm, 9, rfl⟩
abbrev main_call0_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call1_call0_c : Ref sig .tc := ⟨.hbm, 19, rfl⟩
abbrev main_call1_call0_v0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x4096x1024_S32768x1024 : S8x4096x1024.ShapeCasts S32768x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bcast_S_S8x4096 : S_.BroadcastsInDim S8x4096 (![] : Fin 0 → Fin S8x4096.rank)
  natLt_1_32 : 1 < 32
  shapeCasts_S8x4096_S32768 : S8x4096.ShapeCasts S32768
  bcast_S_S_ : S_.BroadcastsInDim S_ (![] : Fin 0 → Fin S_.rank)
  reduceWindows_S32768_S32768_w32768s1p32767_0 : S32768.ReduceWindows (![32768] : Fin 1 → Nat) ![1] ![32767] ![0] S32768
  h_S_ : 0 < S_.numel
  slices_S8x4096_S8x1_0_4095 : S8x4096.Slices ![0, 4095] S8x1
  shapeCasts_S8x1_S8 : S8x1.ShapeCasts S8
  bcast_S_S8 : S_.BroadcastsInDim S8 (![] : Fin 0 → Fin S8.rank)
  reduceWindows_S8_S8_w8s1p7_0 : S8.ReduceWindows (![8] : Fin 1 → Nat) ![1] ![7] ![0] S8
  shapeCasts_S32768_S8x4096 : S32768.ShapeCasts S8x4096
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S32768x1024.size a
  hwx0_1 : ∀ i : grid0.Coords, EltTy.bits .f32 = 32 ∨ (Rect.block (s := S32768x1024) S2048x1024.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S8x4096 : Shape := ⟨2, ![8, 4096]⟩
abbrev S32768x1024 : Shape := ⟨2, ![32768, 1024]⟩
abbrev S_ : Shape := ⟨0, ![]⟩
abbrev S32768 : Shape := ⟨1, ![32768]⟩
abbrev S8x1 : Shape := ⟨2, ![8, 1]⟩
abbrev S8 : Shape := ⟨1, ![8]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S32768x1024, .f32⟩
  | .hbm, ⟨3, _⟩ => ⟨S_, .i32⟩
  | .hbm, ⟨4, _⟩ => ⟨S8x4096, .i32⟩
  | .hbm, ⟨5, _⟩ => ⟨S8x4096, .i1⟩
  | .hbm, ⟨6, _⟩ => ⟨S8x4096, .i32⟩
  | .hbm, ⟨7, _⟩ => ⟨S32768, .i32⟩
  | .hbm, ⟨8, _⟩ => ⟨S_, .i32⟩
  | .hbm, ⟨9, _⟩ => ⟨S_, .i32⟩
  | .hbm, ⟨10, _⟩ => ⟨S32768, .i32⟩
  | .hbm, ⟨11, _⟩ => ⟨S32768, .i32⟩
  | .hbm, ⟨12, _⟩ => ⟨S8x1, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S8, .i32⟩
  | .hbm, ⟨18, _⟩ => ⟨S_, .i32⟩
  | .hbm, ⟨19, _⟩ => ⟨S_, .i32⟩
  | .hbm, ⟨20, _⟩ => ⟨S8, .i32⟩
  | .hbm, ⟨21, _⟩ => ⟨S8, .i32⟩
  | .hbm, ⟨22, _⟩ => ⟨S8x4096, .i32⟩
  | .hbm, ⟨23, _⟩ => ⟨S8x1, .i32⟩
  | .hbm, ⟨24, _⟩ => ⟨S8x4096, .i32⟩
  | .hbm, ⟨25, _⟩ => ⟨S8x4096, .i32⟩
  | .hbm, ⟨26, _⟩ => ⟨S32768, .i32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_call0_c : Ref sig .tc := ⟨.hbm, 8, rfl⟩
abbrev main_call0_call0_v0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call1_call0_c : Ref sig .tc := ⟨.hbm, 18, rfl⟩
abbrev main_call1_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  shapeCasts_S8x4096x1024_S32768x1024 : S8x4096x1024.ShapeCasts S32768x1024
  bcast_S_S8x4096 : S_.BroadcastsInDim S8x4096 (![] : Fin 0 → Fin S8x4096.rank)
  natLt_1_32 : 1 < 32
  shapeCasts_S8x4096_S32768 : S8x4096.ShapeCasts S32768
  bcast_S_S_ : S_.BroadcastsInDim S_ (![] : Fin 0 → Fin S_.rank)
  reduceWindows_S32768_S32768_w32768s1p32767_0 : S32768.ReduceWindows (![32768] : Fin 1 → Nat) ![1] ![32767] ![0] S32768
  h_S_ : 0 < S_.numel
  slices_S8x4096_S8x1_0_4095 : S8x4096.Slices ![0, 4095] S8x1
  shapeCasts_S8x1_S8 : S8x1.ShapeCasts S8
  bcast_S_S8 : S_.BroadcastsInDim S8 (![] : Fin 0 → Fin S8.rank)
  reduceWindows_S8_S8_w8s1p7_0 : S8.ReduceWindows (![8] : Fin 1 → Nat) ![1] ![7] ![0] S8
  shapeCasts_S32768_S8x4096 : S32768.ShapeCasts S8x4096
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)

variable [Facts₀]

class Facts : Prop extends Facts₀ where

variable [Facts]
-- ==== Proof.RefRun.lean ====
/-
  The reference program's run, read back. The reference has no kernel: its @main is a straight line of host
  operations, two of them calls of jax's outlined cumulative sum (each call three operations: the scalar zero, its
  rank-0 broadcast, and a windowed integer sum whose window reaches back over the whole prefix). Listed in order
  with the calls' operations in place, the line runs by the library's theorem for straight lines, and each result
  buffer then holds the operations' composed term of the two arguments:

    * the first result is the float argument [8, 4096, 1024] re-read in row-major order as [32768, 1024];
    * the second is `segIds` of the integer labels [8, 4096]: with inc = (label == 0) flattened to [32768],
      within = cumsum(inc) - inc (the count of zero labels strictly before a position), extra[b] = (last label of
      example b == 1), off = cumsum(extra) - extra (the count of such examples strictly before b), the result at
      (b, s) is within[b * 4096 + s] + off[b], flattened again.

  No float arithmetic occurs anywhere: the float array is only moved.
-/
import proofs.«175729_j79723182949008_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The float argument read in row-major order at the merged shape. -/
def rows (x : FVec F S8x4096x1024 .f32) : FVec F S32768x1024 .f32 :=
  shapeCast S32768x1024 x shapeCasts_S8x4096x1024_S32768x1024

/-- 1 where the label is 0, else 0, flattened: the increments of the segment counter. -/
def inc (labels : IVec S8x4096 32) : IVec S32768 32 :=
  shapeCast S32768 (extui 32 (cmpi .eq labels (broadcastInDim S8x4096 ![] bcast_S_S8x4096 (constantI S_ 32 0#32))) natLt_1_32)
    shapeCasts_S8x4096_S32768

/-- The exclusive prefix sum of the increments: the inclusive windowed sum less the increment itself. -/
def within (labels : IVec S8x4096 32) : IVec S32768 32 :=
  subi (Host.reduceWindow IntOp.addi ![32768] ![1] ![32767] ![0] (inc labels)
      (broadcastInDim S_ ![] bcast_S_S_ (constantI S_ 32 0#32)) reduceWindows_S32768_S32768_w32768s1p32767_0 h_S_)
    (inc labels)

/-- 1 for an example whose last label is 1, else 0. -/
def extra (labels : IVec S8x4096 32) : IVec S8 32 :=
  extui 32 (cmpi .eq (shapeCast S8 (extractStridedSlice S8x1 ![0, 4095] labels slices_S8x4096_S8x1_0_4095) shapeCasts_S8x1_S8)
    (broadcastInDim S8 ![] bcast_S_S8 (constantI S_ 32 1#32))) natLt_1_32

/-- The exclusive prefix sum of `extra` over the examples. -/
def off (labels : IVec S8x4096 32) : IVec S8 32 :=
  subi (Host.reduceWindow IntOp.addi ![8] ![1] ![7] ![0] (extra labels)
      (broadcastInDim S_ ![] bcast_S_S_ (constantI S_ 32 0#32)) reduceWindows_S8_S8_w8s1p7_0 h_S_)
    (extra labels)

/-- The segment ids: `within` per position plus the example's offset, flattened. -/
def segIds (labels : IVec S8x4096 32) : IVec S32768 32 :=
  shapeCast S32768
    (addi (shapeCast S8x4096 (within labels) shapeCasts_S32768_S8x4096)
      (broadcastInDim S8x4096 ![0, 1] bcast_S8x1_S8x4096_0_1 (broadcastInDim S8x1 ![0] bcast_S8_S8x1_0 (off labels))))
    shapeCasts_S8x4096_S32768

/-- @main's 25 operations, in order, each call's three in place over the call's own buffers. -/
abbrev ops : List (HloOp τ sig (Elt F)) :=
  [ reshape main_arg0 main_v0 rfl shapeCasts_S8x4096x1024_S32768x1024,
    nullary main_c (constantI S_ 32 0#32),
    unary main_c main_v1 (broadcastInDim S8x4096 ![] bcast_S_S8x4096 : (⟨S_, .i32⟩ : BufTy).Contents (Elt F) → (⟨S8x4096, .i32⟩ : BufTy).Contents (Elt F)),
    binary main_arg1 main_v1 main_v2 (cmpi .eq : (⟨S8x4096, .i32⟩ : BufTy).Contents (Elt F) → (⟨S8x4096, .i32⟩ : BufTy).Contents (Elt F) → (⟨S8x4096, .i1⟩ : BufTy).Contents (Elt F)),
    unary main_v2 main_v3 ((extui 32 · natLt_1_32) : (⟨S8x4096, .i1⟩ : BufTy).Contents (Elt F) → (⟨S8x4096, .i32⟩ : BufTy).Contents (Elt F)),
    reshape main_v3 main_v4 rfl shapeCasts_S8x4096_S32768,
    TRef.nullary main_call0.call0.c (constantI S_ 32 0#32),
    TRef.unary main_call0.call0.c main_call0.call0.v0 (broadcastInDim S_ ![] bcast_S_S_),
    TRef.binary (.of main_v4 : TRef sig ⟨S32768, .i32⟩) main_call0.call0.v0 main_call0.call0.v1 (fun x v => Host.reduceWindow IntOp.addi ![32768] ![1] ![32767] ![0] x v reduceWindows_S32768_S32768_w32768s1p32767_0 h_S_),
    binary main_v5 main_v4 main_v6 (subi : (⟨S32768, .i32⟩ : BufTy).Contents (Elt F) → (⟨S32768, .i32⟩ : BufTy).Contents (Elt F) → (⟨S32768, .i32⟩ : BufTy).Contents (Elt F)),
    unary main_arg1 main_v7 ((extractStridedSlice S8x1 ![0, 4095] · slices_S8x4096_S8x1_0_4095) : (⟨S8x4096, .i32⟩ : BufTy).Contents (Elt F) → (⟨S8x1, .i32⟩ : BufTy).Contents (Elt F)),
    reshape main_v7 main_v8 rfl shapeCasts_S8x1_S8,
    nullary main_c_0 (constantI S_ 32 1#32),
    unary main_c_0 main_v9 (broadcastInDim S8 ![] bcast_S_S8 : (⟨S_, .i32⟩ : BufTy).Contents (Elt F) → (⟨S8, .i32⟩ : BufTy).Contents (Elt F)),
    binary main_v8 main_v9 main_v10 (cmpi .eq : (⟨S8, .i32⟩ : BufTy).Contents (Elt F) → (⟨S8, .i32⟩ : BufTy).Contents (Elt F) → (⟨S8, .i1⟩ : BufTy).Contents (Elt F)),
    unary main_v10 main_v11 ((extui 32 · natLt_1_32) : (⟨S8, .i1⟩ : BufTy).Contents (Elt F) → (⟨S8, .i32⟩ : BufTy).Contents (Elt F)),
    TRef.nullary main_call1.call0.c (constantI S_ 32 0#32),
    TRef.unary main_call1.call0.c main_call1.call0.v0 (broadcastInDim S_ ![] bcast_S_S_),
    TRef.binary (.of main_v11 : TRef sig ⟨S8, .i32⟩) main_call1.call0.v0 main_call1.call0.v1 (fun x v => Host.reduceWindow IntOp.addi ![8] ![1] ![7] ![0] x v reduceWindows_S8_S8_w8s1p7_0 h_S_),
    binary main_v12 main_v11 main_v13 (subi : (⟨S8, .i32⟩ : BufTy).Contents (Elt F) → (⟨S8, .i32⟩ : BufTy).Contents (Elt F) → (⟨S8, .i32⟩ : BufTy).Contents (Elt F)),
    reshape main_v6 main_v14 rfl shapeCasts_S32768_S8x4096,
    unary main_v13 main_v15 (broadcastInDim S8x1 ![0] bcast_S8_S8x1_0 : (⟨S8, .i32⟩ : BufTy).Contents (Elt F) → (⟨S8x1, .i32⟩ : BufTy).Contents (Elt F)),
    unary main_v15 main_v16 (broadcastInDim S8x4096 ![0, 1] bcast_S8x1_S8x4096_0_1 : (⟨S8x1, .i32⟩ : BufTy).Contents (Elt F) → (⟨S8x4096, .i32⟩ : BufTy).Contents (Elt F)),
    binary main_v14 main_v16 main_v17 (addi : (⟨S8x4096, .i32⟩ : BufTy).Contents (Elt F) → (⟨S8x4096, .i32⟩ : BufTy).Contents (Elt F) → (⟨S8x4096, .i32⟩ : BufTy).Contents (Elt F)),
    reshape main_v17 main_v18 rfl shapeCasts_S8x4096_S32768 ]

set_option maxRecDepth 2048 in
/-- @main is that straight line: the called functions' definitions unfolded at their calls, the sequencing
    re-associated. -/
theorem main_eq (c : Dev nD) : main (F := F) c = seq ops := by
  simp only [main, fn_cumsum.body, fn_cumsum_0.body, fn_cumsum_1.body, fn_cumsum_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨reshape_bufs_sub .., nullary_bufs_sub .., unary_bufs_sub .., binary_bufs_sub .., unary_bufs_sub .., reshape_bufs_sub ..,
    nullary_bufs_sub .., unary_bufs_sub .., binary_bufs_sub .., binary_bufs_sub .., unary_bufs_sub .., reshape_bufs_sub ..,
    nullary_bufs_sub .., unary_bufs_sub .., binary_bufs_sub .., unary_bufs_sub .., nullary_bufs_sub .., unary_bufs_sub ..,
    binary_bufs_sub .., binary_bufs_sub .., reshape_bufs_sub .., unary_bufs_sub .., unary_bufs_sub .., binary_bufs_sub ..,
    reshape_bufs_sub ..⟩

/-- The line run from any contents: the first result buffer holds the float argument re-read at the merged shape. -/
theorem out_rows (V : Valuation τ sig (Elt F)) :
    after ops V (Proc.devRef .tc main_v0) = rows (V (Proc.devRef .tc main_arg0)) := by
  after_results
  first | done | rfl

-- the windowed sums stay folded while the two sides are compared: the comparison never looks inside them
attribute [local irreducible] Host.reduceWindow in
/-- And the second result buffer holds the segment ids of the labels. -/
theorem out_segIds (V : Valuation τ sig (Elt F)) :
    after ops V (Proc.devRef .tc main_v18) = segIds (V (Proc.devRef .tc main_arg1)) := by
  after_results
  first | done | rfl

theorem kept_arg0 (V : Valuation τ sig (Elt F)) : after ops V (Proc.devRef .tc main_arg0) = V (Proc.devRef .tc main_arg0) := by
  after_results
theorem kept_arg1 (V : Valuation τ sig (Elt F)) : after ops V (Proc.devRef .tc main_arg1) = V (Proc.devRef .tc main_arg1) := by
  after_results

/-- On every device, from any memory with zero counters: every weakly fair execution of @main terminates with the
    two results at `rows` of the float argument and `segIds` of the labels, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = rows (m ((c.tc : Thread nD τ).loc main_arg0))
      ∧ r.2.mem ((c.tc : Thread nD τ).loc main_v18) = segIds (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_rows _), (h c main_v18).trans (out_segIds _),
      (h c main_arg0).trans (kept_arg0 _), (h c main_arg1).trans (kept_arg1 _)⟩)
    (run_seq scopedRefs_eq scopedSems_eq defs main (fun _ => ops) main_eq (fun _ => ops_sub) m ρ)

end Cert.ReferenceIdeal.HostRun

end
-- ==== Proof.KernelCopy.lean ====
/-
  What the copy kernel leaves in its output array. The pallas_call walks 16 grid points; at point t the input
  window stages rows 2048 t … 2048 t + 2047 (all 1024 columns) of the [32768, 1024] array the host reshape wrote,
  the body loads that tile and stores it unchanged into the output window's tile, and the pipeline writes the tile
  back to the same rows of the output array. Both windows have the same index map t ↦ (t, 0), so what point t writes
  back is block t of ONE array — the reshaped input as the region finds it — and the 16 blocks tile the 32768 rows:
  row r lies in block r / 2048. Hence the output array ends equal to the reshaped input, and the reshaped input is
  the float argument read in row-major order at the merged shape.
-/
import proofs.«175729_j79723182949008_2_alg».proof.Proof.Gen.KernelIdeal.Frame
import Idealize.ShloMosaic.Lib.Pipeline.Value
import Idealize.ShloMosaic.Lib.StableHlo.Run

noncomputable section

namespace Cert.KernelIdeal.Copy

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The body's one load and one store are at offset zero of the tile. -/
theorem origin : (![0, 0] : Fin 2 → Nat) = fun _ => 0 := funext fun a => by fin_cases a <;> rfl

/-- Decided over the 16 points: the input window's block index is the output window's, on both axes. -/
theorem same_block : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every row block 0 … 15 (and the one column block) is some point's. -/
theorem block_onto : ∀ (q0 : Fin 16) (q1 : Fin 1), ∃ t : Fin cfg0.N, win0_1.index t = ![q0.val, q1.val] :=
  (by decide +kernel : ∀ (q0 : Fin 16) (q1 : Fin 1), ∃ t : Fin grid0.N, win0_1.index t = ![q0.val, q1.val])

/-- The array both windows' blocks are blocks of: the reshaped input as the region finds it. -/
abbrev src (c : Dev nD) : S32768x1024.Idx → Elt F .f32 := V m c main_v0

/-- What point `t` writes back is block `t` of the reshaped input: the stored tile is the loaded tile (a shape
    cast to the same shape), and the loaded tile sits at the same rows and columns as the written one. -/
theorem flushed_eq (c : Dev nD) (t : Fin cfg0.N) :
    (dats m 0 c).flushed 1 t = ((cfg0.win 1).blk t).view.read (Elt F) (src m c) := by
  show (cfg0.win 1).cut (grid0.coords t) ((dats m 0 c).after 1 t) = _
  rw [after0_1]
  unfold out0_1
  rw [View.canon_unit_zero origin]
  simp only [View.ld_unit_zero (S := S2048x1024) origin]
  unfold k0_pay1
  rw [shapeCast_self]
  obtain ⟨e0, e1⟩ := same_block t
  funext j
  show V m c main_v0 (((cfg0.win 0).blk t).view.emb j) = V m c main_v0 (((cfg0.win 1).blk t).view.emb j)
  refine congrArg (V m c main_v0) ?_
  funext a; apply Fin.ext
  match a with
  | ⟨0, _⟩ => show win0_0.index t (0 : Fin 2) * 2048 + 1 * (j 0).val = win0_1.index t (0 : Fin 2) * 2048 + 1 * (j 0).val; omega
  | ⟨1, _⟩ => show win0_0.index t (1 : Fin 2) * 1024 + 1 * (j 1).val = win0_1.index t (1 : Fin 2) * 1024 + 1 * (j 1).val; omega

/-- An index of the output array is in point `t`'s block iff each coordinate is in the block's range on its axis. -/
theorem mem_block (t : Fin cfg0.N) (i : S32768x1024.Idx) :
    i ∈ ((cfg0.win 1).blk t).view.set ↔ ∀ a : Fin 2, win0_1.index t a * S2048x1024.size a ≤ (i a).val ∧ (i a).val < win0_1.index t a * S2048x1024.size a + S2048x1024.size a := by
  show i ∈ ((View.whole main_v1).slice (win0_1.rect t)).set ↔ _
  rw [View.set_slice_whole, Rect.mem_set_unit]
  exact Iff.rfl

/-- The 16 blocks cover the array: row r is in the block of the point with block index r / 2048. -/
theorem covered (i : S32768x1024.Idx) :
    ∃ t : Fin cfg0.N, (cfg0.win 1).flush t = true ∧ i ∈ ((cfg0.win 1).blk t).view.set := by
  have hi0 : (i 0).val < 32768 := (i 0).isLt
  have hi1 : (i 1).val < 1024 := (i 1).isLt
  obtain ⟨t, ht⟩ := block_onto ⟨(i 0).val / 2048, by omega⟩ ⟨(i 1).val / 1024, by omega⟩
  have q0 : win0_1.index t (0 : Fin 2) = (i 0).val / 2048 := congrFun ht 0
  have q1 : win0_1.index t (1 : Fin 2) = (i 1).val / 1024 := congrFun ht 1
  refine ⟨t, flush0_1 t, ?_⟩
  rw [mem_block]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 1024 ≤ (i 1).val ∧ (i 1).val < win0_1.index t (1 : Fin 2) * 1024 + 1024; omega

/-- So the output array ends holding the reshaped input. -/
theorem final (c : Dev nD) : (dats m 0 c).arrAt 1 cfg0.N = src m c :=
  (dats m 0 c).arrAt_eq_of_cover 1 (src m c) (fun t _ => flushed_eq m c t) covered

/-- The float argument read in row-major order at the merged shape. -/
def rows (x : FVec F S8x4096x1024 .f32) : FVec F S32768x1024 .f32 :=
  shapeCast S32768x1024 x shapeCasts_S8x4096x1024_S32768x1024

/-- The one host operation before the region is that reshape of the float argument. -/
theorem src_eq (c : Dev nD) : src m c = rows (m ((c : Thread nD τ).loc main_arg0)) := by
  show StableHlo.after hostOps0 (fun b => m (c, b)) (Proc.devRef .tc main_v0) = _
  after_results
  first | done | rfl

end Cert.KernelIdeal.Copy

end
-- ==== Proof.KernelTail.lean ====
/-
  The integer result of the kernel's program. After the pallas_call, @main computes the segment ids from the integer
  labels alone, by host operations (two of them calls of jax's outlined cumulative sum, each a windowed integer sum
  reaching back over the whole prefix): with inc = (label == 0) flattened to [32768], within = cumsum(inc) - inc (the
  count of zero labels strictly before a position), extra[b] = (last label of example b == 1), off = cumsum(extra) -
  extra (the count of such examples strictly before b), the result at (b, s) is within[b * 4096 + s] + off[b],
  flattened again. None of these operations reads an array the kernel touched: they read the labels, which no
  earlier line writes, so the second result is `segIds` of the labels as launched.
-/
import proofs.«175729_j79723182949008_2_alg».proof.Proof.Gen.KernelIdeal.Frame
import Idealize.ShloMosaic.Lib.StableHlo.Run

noncomputable section

namespace Cert.KernelIdeal.Tail

open Cert.KernelIdeal Cert.KernelIdeal.Gen Idealize.ShloMosaic Idealize.ShloMosaic.TcCoe Idealize.SL.Sem
open Idealize.ShloMosaic.StableHlo (after_cons after_nil)

variable {F : FTy → Type} [FloatOps F]
variable (m : (ℓ : Loc nD τ sig) → Buf (Elt F) ℓ) (ρ : Dev nD → PrngReg)

/-- 1 where the label is 0, else 0, flattened: the increments of the segment counter. -/
def inc (labels : IVec S8x4096 32) : IVec S32768 32 :=
  shapeCast S32768 (extui 32 (cmpi .eq labels (broadcastInDim S8x4096 ![] bcast_S_S8x4096 (constantI S_ 32 0#32))) natLt_1_32)
    shapeCasts_S8x4096_S32768

/-- The exclusive prefix sum of the increments: the inclusive windowed sum less the increment itself. -/
def within (labels : IVec S8x4096 32) : IVec S32768 32 :=
  subi (Host.reduceWindow IntOp.addi ![32768] ![1] ![32767] ![0] (inc labels)
      (broadcastInDim S_ ![] bcast_S_S_ (constantI S_ 32 0#32)) reduceWindows_S32768_S32768_w32768s1p32767_0 h_S_)
    (inc labels)

/-- 1 for an example whose last label is 1, else 0. -/
def extra (labels : IVec S8x4096 32) : IVec S8 32 :=
  extui 32 (cmpi .eq (shapeCast S8 (extractStridedSlice S8x1 ![0, 4095] labels slices_S8x4096_S8x1_0_4095) shapeCasts_S8x1_S8)
    (broadcastInDim S8 ![] bcast_S_S8 (constantI S_ 32 1#32))) natLt_1_32

/-- The exclusive prefix sum of `extra` over the examples. -/
def off (labels : IVec S8x4096 32) : IVec S8 32 :=
  subi (Host.reduceWindow IntOp.addi ![8] ![1] ![7] ![0] (extra labels)
      (broadcastInDim S_ ![] bcast_S_S_ (constantI S_ 32 0#32)) reduceWindows_S8_S8_w8s1p7_0 h_S_)
    (extra labels)

/-- The segment ids: `within` per position plus the example's offset, flattened. -/
def segIds (labels : IVec S8x4096 32) : IVec S32768 32 :=
  shapeCast S32768
    (addi (shapeCast S8x4096 (within labels) shapeCasts_S32768_S8x4096)
      (broadcastInDim S8x4096 ![0, 1] bcast_S8x1_S8x4096_0_1 (broadcastInDim S8x1 ![0] bcast_S8_S8x1_0 (off labels))))
    shapeCasts_S8x4096_S32768

-- the windowed sums stay folded while the two sides are compared: the comparison never looks inside them
attribute [local irreducible] Host.reduceWindow in
/-- The 24 host operations after the region, run from any contents `W`, leave the second result buffer at the
    segment ids of what `W` holds at the labels' buffer. -/
theorem tail_segIds (W : Valuation τ sig (Elt F)) :
    StableHlo.after (List.flatten [hostOps1, hostOps1_1, hostOps1_2, hostOps1_3, hostOps1_4]) W (Proc.devRef .tc main_v19)
      = segIds (W (Proc.devRef .tc main_arg1)) := by
  simp only [hostOps1, hostOps1_1, hostOps1_2, hostOps1_3, hostOps1_4, List.flatten_cons, List.flatten_nil, List.append_nil,
    List.cons_append, List.nil_append]
  after_results
  first | done | rfl

/-- The second result after the whole program: the labels' buffer is no array of the pipeline and no line before
    the region writes it, so the tail reads the labels as launched. -/
theorem result_segIds (c : Dev nD) :
    Pipeline.afterTail₀ cfgs (dats m) 0 (V0 m) [hostOps1, hostOps1_1, hostOps1_2, hostOps1_3, hostOps1_4] c main_v19
      = segIds (m ((c : Thread nD τ).loc main_arg1)) := by
  unfold Pipeline.afterTail₀
  rw [tail_segIds, Pipeline.withArrays_of_ne _ c (V0 m c) _ main_arg1 (by exact (by decide : ∀ w, Pipeline.arrRef spec0 w ≠ main_arg1))]
  exact congrArg segIds (V_main_arg1 m c)

end Cert.KernelIdeal.Tail

end
-- ==== Proof.KernelRun.lean ====
/-
  The kernel program's run, read: the frame run of @main around its one region states each pipeline array at what
  the write-backs leave and every other buffer at what the lines after the region compute. Read at the two results:
  the copy's output array is the float argument at the merged shape (the 16 tiles cover it), and the integer
  result is the segment ids of the labels (the lines after the region read nothing the kernel wrote).
-/
import proofs.«175729_j79723182949008_2_alg».proof.Proof.KernelCopy
import proofs.«175729_j79723182949008_2_alg».proof.Proof.KernelTail

noncomputable section

namespace Cert.KernelIdeal.Whole

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- On every device, from any memory with zero counters: every weakly fair execution of @main terminates with the
    float result at the float argument re-read at the merged shape, the integer result at the segment ids of the
    labels, and both arguments unchanged. -/
theorem run : θ_run defs (onTc (τ := τ) (main (F := F))) ⟨m, fun _ => 0, ρ⟩ fun r => ∀ c : Dev nD,
      r.2.mem ((c : Thread nD τ).loc main_v1) = Copy.rows (m ((c : Thread nD τ).loc main_arg0))
      ∧ r.2.mem ((c : Thread nD τ).loc main_v19) = Tail.segIds (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).1 1).trans ((Copy.final m c).trans (Copy.src_eq m c)),
        ((h c).2 main_v19 (Pipeline.mem_restRefs_of main_v19 (by decide) (by decide))).trans (Tail.result_segIds m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Whole

end
-- ==== Proof.lean ====
/-
  The certificate: a tiled copy kernel and integer prefix sums against their jnp reference, over the extended reals.

  The reference returns the float input [8, 4096, 1024] reshaped to [32768, 1024] and, from the integer labels
  [8, 4096], the segment ids: the number of zero labels strictly before each position plus, per example, the number
  of earlier examples whose last label is 1. The kernel's program reshapes the float input on the host, copies it
  through a pallas_call in 16 tiles of 2048 rows (load a tile, store it unchanged), and computes the segment ids by
  the same host operations as the reference.

  So the two float results are the same array — the 16 tiles cover the output and each is the matching block of
  the reshaped input — and the two integer results are the same function of the labels, operation for operation.
  No arithmetic is done on floats and no law of the extended reals is used: the precondition (finite inputs) is never
  opened. The ideal pass rewrote nothing in the kernel, so the idealization claim is trivial.
-/
import proofs.«175729_j79723182949008_2_alg».proof.Defs
import proofs.«175729_j79723182949008_2_alg».proof.Proof.Gen.Kernel
import proofs.«175729_j79723182949008_2_alg».proof.Proof.Gen.Kernel.Frame
import proofs.«175729_j79723182949008_2_alg».proof.Proof.Gen.KernelIdeal
import proofs.«175729_j79723182949008_2_alg».proof.Proof.Gen.KernelIdeal.Frame
import proofs.«175729_j79723182949008_2_alg».proof.Proof.Gen.ReferenceIdeal
import proofs.«175729_j79723182949008_2_alg».proof.Proof.Gen.Pre_finite_inputs
import proofs.«175729_j79723182949008_2_alg».proof.Proof.RefRun
import proofs.«175729_j79723182949008_2_alg».proof.Proof.KernelRun
import Idealize.ShloMosaic.Adequacy
import Idealize.ShloMosaic.Init

noncomputable section

namespace Cert.Proof

open Idealize.ShloMosaic Idealize.SL.Sem

/-- The reshape of the float argument is the same term in both programs. -/
theorem rows_eq (x : FVec Ideal Cert.ReferenceIdeal.S8x4096x1024 .f32) :
    Cert.ReferenceIdeal.HostRun.rows (F := Ideal) x = Cert.KernelIdeal.Copy.rows (F := Ideal) x := rfl

-- the windowed sums stay folded: the two sides are the same operations in the same order
attribute [local irreducible] Host.reduceWindow in
/-- The segment ids are the same function of the labels in both programs: the same operations in the same order. -/
theorem segIds_eq (labels : IVec Cert.ReferenceIdeal.S8x4096 32) :
    Cert.ReferenceIdeal.HostRun.segIds labels = Cert.KernelIdeal.Tail.segIds labels := rfl

theorem frame_k : Cert.frame_Kernel := fun m ρ _ => Cert.Kernel.Gen.frame m ρ
theorem frame_ki : Cert.frame_KernelIdeal := fun m ρ _ => Cert.KernelIdeal.Gen.frame m ρ
/-- The reference's frame is its run with the results dropped. -/
theorem frame_ri : Cert.frame_ReferenceIdeal := fun m ρ _ =>
  (θ_run Cert.ReferenceIdeal.defs _ _).mono (fun _ h c => ⟨(h c).2.2.1, (h c).2.2.2⟩) (Cert.ReferenceIdeal.HostRun.run (F := Ideal) m ρ)

/-- At the ideal instance both programs end with the float argument at the merged shape and the segment ids of
    the labels, from arguments that agree. -/
theorem algebraic : Cert.algebraic_KernelIdeal_ReferenceIdeal := by
  intro m ρ m' ρ' _ hagree
  refine ⟨fun c => Cert.KernelIdeal.Copy.rows (F := Ideal) (m ((c.tc : Thread Cert.KernelIdeal.nD Cert.KernelIdeal.τ).loc Cert.KernelIdeal.main_arg0)),
    fun c => Cert.KernelIdeal.Tail.segIds (m ((c.tc : Thread Cert.KernelIdeal.nD Cert.KernelIdeal.τ).loc Cert.KernelIdeal.main_arg1)),
    Cert.KernelIdeal.Whole.run (F := Ideal) m ρ, ?_⟩
  refine (θ_run Cert.ReferenceIdeal.defs _ _).mono (fun _ h c => ⟨(h c).1.trans ?_, (h c).2.1.trans ?_, (h c).2.2.1, (h c).2.2.2⟩)
    (Cert.ReferenceIdeal.HostRun.run (F := Ideal) m' ρ')
  · rw [(hagree c).1]; exact rows_eq _
  · rw [(hagree c).2]; exact segIds_eq _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
